-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "one_minus_eps" .f32 0x3F7FFFFE#32 ((140737474281579 / 140737488355328 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S98304x512 : Shape := ⟨2, ![98304, 512]⟩
abbrev S16x128 : Shape := ⟨2, ![16, 128]⟩
abbrev S8192x512 : Shape := ⟨2, ![8192, 512]⟩
abbrev S8x128 : Shape := ⟨2, ![8, 128]⟩
abbrev S1x8192x512 : Shape := ⟨3, ![1, 8192, 512]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S2048x512 : Shape := ⟨2, ![2048, 512]⟩

abbrev nBuf : Space → Nat
  | .hbm => 14
  | .vmem => 14
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S98304x512, .f32⟩
  | .hbm, ⟨3, _⟩ => ⟨S98304x512, .f32⟩
  | .hbm, ⟨4, _⟩ => ⟨S16x128, .f32⟩
  | .hbm, ⟨5, _⟩ => ⟨S16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1x1, .f32⟩
  | .hbm, ⟨12, _⟩ => ⟨S98304x512, .f32⟩
  | .hbm, ⟨13, _⟩ => ⟨S64x3x512x512, .f32⟩
  | .local _ .vmem, ⟨0, _⟩ => ⟨S8192x512, .f32⟩
  | .local _ .vmem, ⟨1, _⟩ => ⟨S8192x512, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S1x1, .f32⟩
  | .local _ .vmem, ⟨11, _⟩ => ⟨S1x1, .f32⟩
  | .local _ .vmem, ⟨12, _⟩ => ⟨S2048x512, .f32⟩
  | .local _ .vmem, ⟨13, _⟩ => ⟨S2048x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64x3x512x512_S98304x512 : S64x3x512x512.ShapeCasts S98304x512
  inb_S8x128_S8x128_0_0 : ∀ a, (![0, 0] : Fin 2 → Nat) a + S8x128.size a ≤ S8x128.size a
  h_S8x128 : 0 < S8x128.numel
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  shapeCasts_S8192x512_S1x8192x512 : S8192x512.ShapeCasts S1x8192x512
  reduces_S1x8192x512_S1 : S1x8192x512.Reduces [1, 2] S1
  shapeCasts_S1_S1x1x1 : S1.ShapeCasts S1x1x1
  inpos_S1x1x1_p0_0_0 : ∀ a, (![0, 0, 0] : Fin 3 → Nat) a < S1x1x1.size a
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  shapeCasts_S_S1x1 : S_.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S98304x512_S64x3x512x512 : S98304x512.ShapeCasts S64x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S98304x512.size a
  hwx0_0 : ∀ i : grid0.Coords, EltTy.bits .f32 = 32 ∨ (Rect.block (s := S98304x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S98304x512.size a
  hwx1_0 : ∀ i : grid1.Coords, EltTy.bits .f32 = 32 ∨ (Rect.block (s := S98304x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S98304x512.size a
  hwx1_1 : ∀ i : grid1.Coords, EltTy.bits .f32 = 32 ∨ (Rect.block (s := S98304x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S98304x512.size a
  hwx1_4 : ∀ i : grid1.Coords, EltTy.bits .f32 = 32 ∨ (Rect.block (s := S98304x512) S2048x512.size (cc1_transform_4 i) (hinb1_4 i)).WholeWords (EltTy.packing .f32)

variable [Facts₀]

abbrev win0_0 : Pipeline.Window sig grid0 :=
  Pipeline.Window.ofSpec (Memref.whole main_v0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x3x512x512 : Shape := ⟨4, ![64, 3, 512, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x3x512x512, .f32⟩
  | .hbm, ⟨10, _⟩ => ⟨S64x3x512x512, .f32⟩
  | .hbm, ⟨11, _⟩ => ⟨S64x3x512x512, .f32⟩
  | .hbm, ⟨12, _⟩ => ⟨S64x3x512x512, .f32⟩
  | .hbm, ⟨13, _⟩ => ⟨S_, .f32⟩
  | .hbm, ⟨14, _⟩ => ⟨S64x3x512x512, .f32⟩
  | .hbm, ⟨15, _⟩ => ⟨S64x3x512x512, .f32⟩
  | .hbm, ⟨16, _⟩ => ⟨S64x3x512x512, .f32⟩
  | .hbm, ⟨17, _⟩ => ⟨S_, .f32⟩
  | .hbm, ⟨18, _⟩ => ⟨S64x3x512x512, .f32⟩
  | .hbm, ⟨19, _⟩ => ⟨S64x3x512x512, .f32⟩
  | .hbm, ⟨20, _⟩ => ⟨S64x3x512x512, .f32⟩
  | .hbm, ⟨21, _⟩ => ⟨S64x3x512x512, .f32⟩
  | .hbm, ⟨22, _⟩ => ⟨S64x3x512x512, .f32⟩
  | .hbm, ⟨23, _⟩ => ⟨S64x3x512x512, .f32⟩
  | .hbm, ⟨24, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  reducesTo_S64x3x512x512_S_d0_1_2_3 : S64x3x512x512.ReducesTo [0, 1, 2, 3] S_
  h_S_ : 0 < S_.numel
  bcast_S_S64x3x512x512 : S_.BroadcastsInDim S64x3x512x512 (![] : Fin 0 → Fin S64x3x512x512.rank)

variable [Facts₀]

class Facts : Prop extends Facts₀ where

variable [Facts]
-- ==== Proof.KernelRun.lean ====
/-
  The idealized kernel's whole run with its RESULT named. The program is two kernel regions among three stretches of
  host operations; the buffer contents at each boundary are a fold from the launch memory (the generated `Gen.W0` … `Gen.W5`),
  and every weakly fair execution ends with every unscoped buffer at the last boundary's contents. Read at the result
  buffer this says what the result array holds; read at the two arguments, that they end as launched.
-/
import proofs.«154565_j23648089932393_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents `W5` at the result buffer, and the two argument arrays are as launched. -/
theorem run_result : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c)⟩)

end Cert.KernelIdeal.RunValue

end
-- ==== Proof.Spec.lean ====
/-
  The common value of the two programs, entry by entry, over the extended reals.

  Both programs add to each entry `x` a Rayleigh variate drawn by the inverse distribution function from the uniform
  sample `u` at the same position — `σ · √(−2 · log(1 − min(u, c)))`, the sample first held below one by the bound `c` —
  and clamp the sum between the smallest and the largest entry of the whole input.
-/
import Idealize.ShloMosaic.PureOps.Ideal
import Idealize.ShloMosaic.Lib.ValueIdx

noncomputable section

namespace Cert.Spec

open Idealize.ShloMosaic

/-- One entry of the result: `min hi (max lo (x + σ · √(−2 · log1p(−min u c))))`, where `σ` is the word of 0.05 and `−2`
    the word of −2, the same two words in both programs (so neither is ever evaluated). -/
def entry (c lo hi x u : EReal) : EReal :=
  min hi (max lo (x + Ideal.ofBits .f32 0x3D4CCCCD#32 *
    Ideal.sqrt (Ideal.ofBits .f32 0xC0000000#32 * Ideal.log1p (-(min u c)))))

/-- The bound that keeps a sample below one: one less the single-precision word nearest 10⁻⁷, the exact rational
    `1 − 14073749 / 2⁴⁷`. -/
def bound : EReal := ((140737474281579 / 140737488355328 : ℝ) : EReal)

/-- The smallest entry of an array: its infimum over the extended reals (`+∞` for no entries; a finite array attains it). -/
def lo {ι : Type} (x : ι → EReal) : EReal := ⨅ i, x i

/-- The largest entry of an array: its supremum. -/
def hi {ι : Type} (x : ι → EReal) : EReal := ⨆ i, x i

/-- A number with the infimum's lower bounds is the infimum. -/
theorem eq_lo_of {ι : Type} (x : ι → EReal) (a : EReal) (h : ∀ b : EReal, b ≤ a ↔ ∀ i, b ≤ x i) : a = lo x :=
  eq_of_forall_le_iff fun b => (h b).trans le_iInf_iff.symm

/-- A number with the supremum's upper bounds is the supremum. -/
theorem eq_hi_of {ι : Type} (x : ι → EReal) (a : EReal) (h : ∀ b : EReal, a ≤ b ↔ ∀ i, x i ≤ b) : a = hi x :=
  eq_of_forall_ge_iff fun b => (h b).trans iSup_le_iff.symm

/-- THE RESULT, index by index: each entry of `x` plus the noise drawn from the entry of `u` at the same index, clamped between
    the smallest and the largest entry of `x`. -/
def result {ι : Type} (x u : ι → EReal) : ι → EReal :=
  fun i => entry bound (lo x) (hi x) (x i) (u i)

end Cert.Spec

end
-- ==== Proof.Consts.lean ====
/- The f32 words this kernel pair carries, as the extended reals their bit patterns denote under
   `Ideal.ofBits` (sign bit, 8 exponent bits with bias 127, 23 trailing significand bits). One module states
   them all, so that the rest of the proof rewrites by these equations and never unfolds `Ideal.ofBits` or
   `Ideal.ieee` itself. -/
import Idealize.ShloMosaic.PureOps.Ideal

noncomputable section

namespace Cert.Consts

open Idealize.ShloMosaic

/-- The pattern `0x3F800000` (sign `0`, exponent field `127`, significand field `0`) denotes
    `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x33D6BF95` (sign `0`, exponent field `103`, significand field `5685141`) denotes
    `(2^23 + 5685141) · 2^(103 - 127 - 23) = 14073749 · 2^(-47)`, a little over `10^(-7)`. -/
theorem ofBits_eps :
    Ideal.ofBits .f32 0x33D6BF95#32 = ((14073749 / 140737488355328 : ℝ) : EReal) := by
  simp [Ideal.ofBits, Ideal.ieee, -EReal.coe_mul]; norm_num

/-- The difference of the two values above: `1 - 14073749 · 2^(-47) = 140737474281579 · 2^(-47)`,
    a real number strictly between `0` and `1`. -/
theorem one_sub_eps :
    Ideal.ofBits .f32 0x3F800000#32 - Ideal.ofBits .f32 0x33D6BF95#32
      = ((140737474281579 / 140737488355328 : ℝ) : EReal) := by
  rw [ofBits_one, ofBits_eps, ← EReal.coe_sub]; norm_num

/-- The pattern `0x7F800000` (sign `0`, exponent field all ones, significand field `0`) denotes `+∞`. -/
theorem ofBits_pos_inf : Ideal.ofBits .f32 0x7F800000#32 = ⊤ := by
  simp [Ideal.ofBits, Ideal.ieee]

/-- The pattern `0xFF800000` (sign `1`, exponent field all ones, significand field `0`) denotes `-∞`. -/
theorem ofBits_neg_inf : Ideal.ofBits .f32 0xFF800000#32 = ⊥ := by
  simp [Ideal.ofBits, Ideal.ieee]

/-- The all-zero pattern (positive zero) denotes `0`. -/
theorem ofBits_zero : Ideal.ofBits .f32 0x00000000#32 = 0 := by
  simp [Ideal.ofBits, Ideal.ieee]

end Cert.Consts

end
-- ==== Proof.KernelNoise.lean ====
/-
  The second kernel region, read as a value: it walks the [98304, 512] arrays in 48 blocks of 2048 rows, and at each block
  stores the noise-and-clamp value of the block's entries, the two clamp bounds read off two one-entry arrays. Every
  point writes its own block back, the blocks tile the array, so the output array ends as ONE function of the four
  arrays the region finds, index by index.
-/
import proofs.«154565_j23648089932393_2_alg».proof.Proof.Gen.KernelIdeal.Frame
import proofs.«154565_j23648089932393_2_alg».proof.Proof.Spec
import proofs.«154565_j23648089932393_2_alg».proof.Proof.Consts
import Idealize.ShloMosaic.Lib.Pipeline.Value
import Idealize.ShloMosaic.Lib.ValueIdx
import Idealize.ShloMosaic.PureOps.IdealRules

set_option maxRecDepth 16384

noncomputable section

namespace Cert.KernelIdeal.Noise

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The only index of a one-entry array. -/
abbrev i00 : S1x1.Idx := fun a => ⟨![0, 0] a, inpos_S1x1_p0_0 a⟩

theorem hz2 : (![0, 0] : Fin 2 → Nat) = fun _ => 0 := funext fun a => by fin_cases a <;> rfl

/-- The kernel's named bound is the rational the certificate's table gives it. -/
theorem named_bound : Named.named (F := Ideal) κ "one_minus_eps" (φ := .f32) 0x3F7FFFFE#32 = Spec.bound :=
  IdealRules.named_const.ideal_named_scalar _ _ _ _ rfl

/-- The region's output array as one function of the arrays it reads: the noise-and-clamp value of the entries at
    the same index, between the two bounds. -/
def G (x u : S98304x512.Idx → Elt Ideal .f32) (lo hi : S1x1.Idx → Elt Ideal .f32) : S98304x512.Idx → Elt Ideal .f32 :=
  fun j => Spec.entry Spec.bound (lo i00) (hi i00) (x j) (u j)

/-- The body's stored value at an entry of the block: the noise-and-clamp value of the two loaded blocks' entries there
    (`0 − a` is `−a` on the extended reals, with no finiteness asked). -/
theorem pay_apply (x0 x1 : Vec Ideal S2048x512 .f32) (x2 x3 : Vec Ideal S1x1 .f32) (y : S2048x512.Idx) :
    k1_pay1 (F := Ideal) x0 x1 x2 x3 y = Spec.entry Spec.bound (x2 i00) (x3 i00) (x0 y) (x1 y) := by
  unfold k1_pay1
  simp only [shapeCast_self]
  show min (x3 _) (max (x2 _) (x0 y + Ideal.ofBits .f32 0x3D4CCCCD#32 *
    Ideal.sqrt (Ideal.ofBits .f32 0xC0000000#32 * Ideal.log1p (Ideal.ofBits .f32 0x00000000#32 -
      min (x1 y) (Named.named (F := Ideal) κ "one_minus_eps" (φ := .f32) 0x3F7FFFFE#32))))) = _
  rw [named_bound, Cert.Consts.ofBits_zero, zero_sub]
  rfl

/-! ## From the blocks to the array -/

variable (V : (c : Dev nD) → (b : Ref sig .tc) → Buf (Elt Ideal) ((c : Thread nD τ).loc b))

/-- The printed index maps, decided once over the 48 points: the two large inputs move with the output, block `t` of
    rows; the two one-entry inputs stay at their only block. -/
theorem idx_facts : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `G` of the arrays as the region finds them. -/
theorem flushed_eq (c : Dev nD) (t : Fin cfg1.N) :
    (dat1 V c).flushed 4 t = ((cfg1.win 4).blk t).view.read (Elt Ideal)
      (G (V c main_v0) (V c main_v1) (V c main_v5) (V c main_v6)) := by
  show (cfg1.win 4).cut (grid1.coords t) ((dat1 V c).after 4 t) = _
  rw [after1_4]
  unfold out1_4
  rw [View.canon_unit_zero hz2]
  simp only [View.ld_unit_zero (S := S2048x512) hz2, View.ld_unit_zero (S := S1x1) hz2]
  obtain ⟨e0, e1, e2, e3, e4, e5, e6, e7, e8, e9⟩ := idx_facts t
  funext j
  refine (pay_apply (iblk1 V c 0 t) (iblk1 V c 1 t) (iblk1 V c 2 t) (iblk1 V c 3 t) j).trans ?_
  show Spec.entry Spec.bound (V c main_v5 (((cfg1.win 2).blk t).view.emb i00)) (V c main_v6 (((cfg1.win 3).blk t).view.emb i00))
      (V c main_v0 (((cfg1.win 0).blk t).view.emb j)) (V c main_v1 (((cfg1.win 1).blk t).view.emb j))
    = Spec.entry Spec.bound (V c main_v5 i00) (V c main_v6 i00)
      (V c main_v0 (((cfg1.win 4).blk t).view.emb j)) (V c main_v1 (((cfg1.win 4).blk t).view.emb j))
  have h0 : ((cfg1.win 0).blk t).view.emb j = ((cfg1.win 4).blk t).view.emb j := by
    funext a; apply Fin.ext
    match a with
    | ⟨0, _⟩ => show win1_0.index t (0 : Fin 2) * 2048 + 1 * (j 0).val = win1_4.index t (0 : Fin 2) * 2048 + 1 * (j 0).val; omega
    | ⟨1, _⟩ => show win1_0.index t (1 : Fin 2) * 512 + 1 * (j 1).val = win1_4.index t (1 : Fin 2) * 512 + 1 * (j 1).val; omega
  have h1 : ((cfg1.win 1).blk t).view.emb j = ((cfg1.win 4).blk t).view.emb j := by
    funext a; apply Fin.ext
    match a with
    | ⟨0, _⟩ => show win1_1.index t (0 : Fin 2) * 2048 + 1 * (j 0).val = win1_4.index t (0 : Fin 2) * 2048 + 1 * (j 0).val; omega
    | ⟨1, _⟩ => show win1_1.index t (1 : Fin 2) * 512 + 1 * (j 1).val = win1_4.index t (1 : Fin 2) * 512 + 1 * (j 1).val; omega
  have h2 : ((cfg1.win 2).blk t).view.emb i00 = i00 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  have h3 : ((cfg1.win 3).blk t).view.emb i00 = i00 := by
    funext a; apply Fin.ext
    match a with
    | ⟨0, _⟩ => show win1_3.index t (0 : Fin 2) * 1 + 1 * 0 = 0; omega
    | ⟨1, _⟩ => show win1_3.index t (1 : Fin 2) * 1 + 1 * 0 = 0; omega
  rw [h0, h1, h2, h3]

/-- An index of the output array is in point `t`'s block iff each coordinate is in the block's range on its axis. -/
theorem mem_blk (t : Fin cfg1.N) (i : S98304x512.Idx) :
    i ∈ ((cfg1.win 4).blk t).view.set ↔ ∀ a : Fin 2, win1_4.index t a * S2048x512.size a ≤ (i a).val
      ∧ (i a).val < win1_4.index t a * S2048x512.size a + S2048x512.size a := by
  show i ∈ ((View.whole main_v7).slice (win1_4.rect t)).set ↔ _
  rw [View.set_slice_whole, Rect.mem_set_unit]
  exact Iff.rfl

/-- Every index of the output array is in the block of the point that holds its row: row `r` lies in block `r / 2048`. -/
theorem cover (i : S98304x512.Idx) :
    ∃ t : Fin cfg1.N, (cfg1.win 4).flush t = true ∧ i ∈ ((cfg1.win 4).blk t).view.set := by
  have hi0 : (i 0).val < 98304 := (i 0).isLt
  have hi1 : (i 1).val < 512 := (i 1).isLt
  have hN : cfg1.N = 48 := N_1
  let t : Fin cfg1.N := ⟨(i 0).val / 2048, by rw [hN]; omega⟩
  obtain ⟨-, -, -, -, -, -, -, -, e8, e9⟩ := idx_facts t
  have e8' : win1_4.index t (0 : Fin 2) = (i 0).val / 2048 := e8
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 512 ≤ (i 1).val ∧ (i 1).val < win1_4.index t (1 : Fin 2) * 512 + 512; omega

/-- The region's output array after its run: `G` of the four arrays the region finds. -/
theorem final (c : Dev nD) :
    (dat1 V c).arrAt 4 cfg1.N = G (V c main_v0) (V c main_v1) (V c main_v5) (V c main_v6) :=
  (dat1 V c).arrAt_eq_of_cover 4 _ (fun t _ => flushed_eq V c t) cover

end Cert.KernelIdeal.Noise

end
-- ==== Proof.KernelHost.lean ====
/-
  What the host operations around the two kernel regions leave in the buffers the regions read: the two arguments re-laid as
  [98304, 512] arrays before the first region; between the regions the smallest entry of the first region's minima and the
  largest of its maxima, each re-laid as a one-entry array; after the second region its output re-laid as the result.
-/
import proofs.«154565_j23648089932393_2_alg».proof.Proof.Gen.KernelIdeal.Frame
import Idealize.ShloMosaic.Lib.StableHlo.Run
import Idealize.ShloMosaic.Lib.Pipeline.Value

set_option maxRecDepth 16384

noncomputable section

namespace Cert.KernelIdeal.HostSide

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

attribute [local irreducible] Host.reduce

/-- Before the first region the first argument is re-laid as a [98304, 512] array. -/
theorem V1_v0 (c : Dev nD) : (V1 m ρ c main_v0 : S98304x512.Idx → Elt Ideal .f32)
    = shapeCast S98304x512 (m ((c : Thread nD τ).loc main_arg0)) shapeCasts_S64x3x512x512_S98304x512 := by
  show StableHlo.after hostOps0 (W0 m ρ c) (Proc.devRef .tc main_v0) = _
  after_results
  rfl

/-- … and the second likewise. -/
theorem V1_v1 (c : Dev nD) : (V1 m ρ c main_v1 : S98304x512.Idx → Elt Ideal .f32)
    = shapeCast S98304x512 (m ((c : Thread nD τ).loc main_arg1)) shapeCasts_S64x3x512x512_S98304x512 := by
  show StableHlo.after hostOps0 (W0 m ρ c) (Proc.devRef .tc main_v1) = _
  after_results
  rfl

/-- The first region only reads the re-laid first argument: it is still there between the regions. -/
theorem V3_v0 (c : Dev nD) : (V3 m ρ c main_v0 : S98304x512.Idx → Elt Ideal .f32) = V1 m ρ c main_v0 := by
  show StableHlo.after hostOps1 (W2 m ρ c) (Proc.devRef .tc main_v0) = _
  after_results
  refine (W2_arr m ρ c 0).trans ?_
  exact ((dat0 (V1 m ρ) c).arrAt_in 0 rfl _).trans (A_eq0 (V1 m ρ) c 0)

/-- The first region does not touch the re-laid second argument. -/
theorem V3_v1 (c : Dev nD) : (V3 m ρ c main_v1 : S98304x512.Idx → Elt Ideal .f32) = V1 m ρ c main_v1 := by
  show StableHlo.after hostOps1 (W2 m ρ c) (Proc.devRef .tc main_v1) = _
  after_results
  exact W2_of_ne m ρ c main_v1 (by decide)

/-- Between the regions the lower clamp bound is the smallest entry, from +∞, of the first region's array of minima, as a one-entry array. -/
theorem V3_v5 (c : Dev nD) : (V3 m ρ c main_v5 : S1x1.Idx → Elt Ideal .f32)
    = shapeCast S1x1 (Host.reduce FloatOps.minimumf ((dat0 (V1 m ρ) c).arrAt 1 cfg0.N) (constant (F := Ideal) S_ .f32 0x7F800000#32)
        reducesTo_S16x128_S_d0_1 h_S_) shapeCasts_S_S1x1 := by
  show StableHlo.after hostOps1 (W2 m ρ c) (Proc.devRef .tc main_v5) = _
  after_results
  rw [W2_arr m ρ c 1]
  rfl

/-- … and the upper bound the largest entry, from −∞, of its array of maxima. -/
theorem V3_v6 (c : Dev nD) : (V3 m ρ c main_v6 : S1x1.Idx → Elt Ideal .f32)
    = shapeCast S1x1 (Host.reduce FloatOps.maximumf ((dat0 (V1 m ρ) c).arrAt 2 cfg0.N) (constant (F := Ideal) S_ .f32 0xFF800000#32)
        reducesTo_S16x128_S_d0_1 h_S_) shapeCasts_S_S1x1 := by
  show StableHlo.after hostOps1 (W2 m ρ c) (Proc.devRef .tc main_v6) = _
  after_results
  rw [W2_arr m ρ c 2]
  rfl

/-- The result is the second region's output array re-laid in the arguments' shape. -/
theorem W5_v8 (c : Dev nD) : (W5 m ρ c (Proc.devRef .tc main_v8) : S64x3x512x512.Idx → Elt Ideal .f32)
    = shapeCast S64x3x512x512 ((dat1 (V3 m ρ) c).arrAt 4 cfg1.N) shapeCasts_S98304x512_S64x3x512x512 := by
  show StableHlo.after hostOps2 (W4 m ρ c) (Proc.devRef .tc main_v8) = _
  after_results
  rw [W4_arr m ρ c 4]
  rfl

end Cert.KernelIdeal.HostSide

end
-- ==== Proof.LibExtremes.lean ====
/- Bounds on minimum- and maximum-reductions over the extended reals, at any shapes.

   At the ideal values a float is an extended real and `minimumf` / `maximumf` are `min` / `max`. A reduction
   of either kind at a result index `j` is the fold of that operation, from an initial value, over the set of
   source indices that drop to `j`. Hence an extended real `b` is a lower bound of a minimum-reduction exactly
   when it is a lower bound of the initial value and of every term, and dually `b` is an upper bound of a
   maximum-reduction exactly when it is an upper bound of the initial value and of every term. This module
   states that for the kernel's `multiReduction` (A) and the host's one-operand `Host.reduce` (B), specialises
   both to a result shape with a single index, where every source index is a term (C), and records that a
   reshape visits every entry of its operand, so that a property holds of all entries of the reshaped vector
   exactly when it holds of all entries of the operand (D). -/
import Idealize.ShloMosaic.PureOps.Ideal
import Idealize.ShloMosaic.PureOps.Ideal.Laws
import Idealize.ShloMosaic.PureOps.Reduce
import Idealize.ShloMosaic.Lib.Pipeline.Value

namespace LibExtremes

open Idealize.ShloMosaic

variable {s t : Shape} {axes : List (Fin s.rank)} {φ : FTy}

/-! ### Folds of `minimumf` and `maximumf` over a finite set -/

/-- `b` is below the fold of `minimumf` from `a` over the terms `f i`, `i ∈ S`, exactly when `b ≤ a` and
    `b ≤ f i` for every `i ∈ S`: a minimum of finitely many extended reals is the greatest lower bound. -/
theorem le_fold_minimumf_iff {ι : Type} (S : Finset ι) (f : ι → EReal) (a b : EReal) :
    b ≤ S.fold (FloatOps.minimumf (F := Ideal) (φ := φ)) a f ↔ b ≤ a ∧ ∀ i ∈ S, b ≤ f i :=
  Finset.le_fold_min (s := S) (f := f) (b := a) (c := b)

/-- The fold of `maximumf` from `a` over the terms `f i`, `i ∈ S`, is below `b` exactly when `a ≤ b` and
    `f i ≤ b` for every `i ∈ S`: a maximum of finitely many extended reals is the least upper bound. -/
theorem fold_maximumf_le_iff {ι : Type} (S : Finset ι) (f : ι → EReal) (a b : EReal) :
    S.fold (FloatOps.maximumf (F := Ideal) (φ := φ)) a f ≤ b ↔ a ≤ b ∧ ∀ i ∈ S, f i ≤ b :=
  Finset.fold_max_le (s := S) (f := f) (b := a) (c := b)

/-! ### (A) The kernel's `multiReduction` -/

/-- `b` is a lower bound of a minimum-reduction at the result index `j` exactly when it is a lower bound of the
    value of the accumulator's pattern and of every source entry whose index drops to `j`. -/
theorem le_multiReduction_minimumf_iff (src : FVec Ideal s φ) (acc : BitVec φ.bits) (h : s.Reduces axes t)
    (hφ : FKind.Formats φ) (hacc : acc = FKind.minimumf.neutral φ hφ) (j : t.Idx) (b : EReal) :
    b ≤ multiReduction .minimumf axes t src acc h hφ hacc j
      ↔ b ≤ Ideal.ofBits φ acc ∧ ∀ i : s.Idx, h.drop i = j → b ≤ src i := by
  rw [multiReduction_minimumf_eq_fold, le_fold_minimumf_iff]
  simp only [Finset.mem_filter, Finset.mem_univ, true_and, Ideal.ofBits_def]

/-- A maximum-reduction at the result index `j` is below `b` exactly when the value of the accumulator's
    pattern and every source entry whose index drops to `j` are below `b`. -/
theorem multiReduction_maximumf_le_iff (src : FVec Ideal s φ) (acc : BitVec φ.bits) (h : s.Reduces axes t)
    (hφ : FKind.Formats φ) (hacc : acc = FKind.maximumf.neutral φ hφ) (j : t.Idx) (b : EReal) :
    multiReduction .maximumf axes t src acc h hφ hacc j ≤ b
      ↔ Ideal.ofBits φ acc ≤ b ∧ ∀ i : s.Idx, h.drop i = j → src i ≤ b := by
  rw [multiReduction_maximumf_eq_fold, fold_maximumf_le_iff]
  simp only [Finset.mem_filter, Finset.mem_univ, true_and, Ideal.ofBits_def]

/-! ### (B) The host's one-operand `Host.reduce` -/

/-- `b` is a lower bound of the host's minimum-reduction at the result index `j` exactly when it is a lower
    bound of the initial value's element and of every operand entry whose index drops to `j`. -/
theorem le_hostReduce_minimumf_iff {u : Shape} (x : s.Idx → Ideal φ) (init : u.Idx → Ideal φ)
    (h : s.ReducesTo axes t) (hu : 0 < u.numel) (j : t.Idx) (b : EReal) :
    b ≤ Host.reduce FloatOps.minimumf x init h hu j
      ↔ b ≤ init (Shape.Idx.first hu) ∧ ∀ i : s.Idx, h.drop i = j → b ≤ x i := by
  rw [Host.reduce_eq_fold, le_fold_minimumf_iff]
  simp only [Finset.mem_filter, Finset.mem_univ, true_and]

/-- The host's maximum-reduction at the result index `j` is below `b` exactly when the initial value's element
    and every operand entry whose index drops to `j` are below `b`. -/
theorem hostReduce_maximumf_le_iff {u : Shape} (x : s.Idx → Ideal φ) (init : u.Idx → Ideal φ)
    (h : s.ReducesTo axes t) (hu : 0 < u.numel) (j : t.Idx) (b : EReal) :
    Host.reduce FloatOps.maximumf x init h hu j ≤ b
      ↔ init (Shape.Idx.first hu) ≤ b ∧ ∀ i : s.Idx, h.drop i = j → x i ≤ b := by
  rw [Host.reduce_eq_fold, fold_maximumf_le_iff]
  simp only [Finset.mem_filter, Finset.mem_univ, true_and]

/-! ### (C) Total reductions: a result shape with a single index -/

/-- The rank-zero shape has a single index: the empty tuple. -/
instance subsingleton_idx_rank_zero : Subsingleton (⟨0, ![]⟩ : Shape).Idx :=
  ⟨fun _ _ => funext fun d => d.elim0⟩

/-- The shape of one axis of size one has a single index: its only coordinate lies in `Fin 1`. -/
instance subsingleton_idx_one : Subsingleton (⟨1, ![1]⟩ : Shape).Idx :=
  ⟨fun a b => funext fun d => by
    have hd : d = 0 := Subsingleton.elim d 0
    subst hd
    exact Subsingleton.elim (α := Fin 1) (a 0) (b 0)⟩

/-- When the result shape has a single index every source index drops to it: `b` is a lower bound of the
    minimum-reduction exactly when it is a lower bound of the accumulator's value and of every source entry. -/
theorem le_multiReduction_minimumf_iff_total [Subsingleton t.Idx] (src : FVec Ideal s φ) (acc : BitVec φ.bits)
    (h : s.Reduces axes t) (hφ : FKind.Formats φ) (hacc : acc = FKind.minimumf.neutral φ hφ) (j : t.Idx)
    (b : EReal) :
    b ≤ multiReduction .minimumf axes t src acc h hφ hacc j
      ↔ b ≤ Ideal.ofBits φ acc ∧ ∀ i : s.Idx, b ≤ src i := by
  rw [le_multiReduction_minimumf_iff]
  exact and_congr_right fun _ => forall_congr' fun i => imp_iff_right (Subsingleton.elim _ _)

/-- When the result shape has a single index, the maximum-reduction is below `b` exactly when the
    accumulator's value and every source entry are below `b`. -/
theorem multiReduction_maximumf_le_iff_total [Subsingleton t.Idx] (src : FVec Ideal s φ) (acc : BitVec φ.bits)
    (h : s.Reduces axes t) (hφ : FKind.Formats φ) (hacc : acc = FKind.maximumf.neutral φ hφ) (j : t.Idx)
    (b : EReal) :
    multiReduction .maximumf axes t src acc h hφ hacc j ≤ b
      ↔ Ideal.ofBits φ acc ≤ b ∧ ∀ i : s.Idx, src i ≤ b := by
  rw [multiReduction_maximumf_le_iff]
  exact and_congr_right fun _ => forall_congr' fun i => imp_iff_right (Subsingleton.elim _ _)

/-- When the result shape has a single index, `b` is a lower bound of the host's minimum-reduction exactly
    when it is a lower bound of the initial value's element and of every operand entry. -/
theorem le_hostReduce_minimumf_iff_total [Subsingleton t.Idx] {u : Shape} (x : s.Idx → Ideal φ)
    (init : u.Idx → Ideal φ) (h : s.ReducesTo axes t) (hu : 0 < u.numel) (j : t.Idx) (b : EReal) :
    b ≤ Host.reduce FloatOps.minimumf x init h hu j
      ↔ b ≤ init (Shape.Idx.first hu) ∧ ∀ i : s.Idx, b ≤ x i := by
  rw [le_hostReduce_minimumf_iff]
  exact and_congr_right fun _ => forall_congr' fun i => imp_iff_right (Subsingleton.elim _ _)

/-- When the result shape has a single index, the host's maximum-reduction is below `b` exactly when the
    initial value's element and every operand entry are below `b`. -/
theorem hostReduce_maximumf_le_iff_total [Subsingleton t.Idx] {u : Shape} (x : s.Idx → Ideal φ)
    (init : u.Idx → Ideal φ) (h : s.ReducesTo axes t) (hu : 0 < u.numel) (j : t.Idx) (b : EReal) :
    Host.reduce FloatOps.maximumf x init h hu j ≤ b
      ↔ init (Shape.Idx.first hu) ≤ b ∧ ∀ i : s.Idx, x i ≤ b := by
  rw [hostReduce_maximumf_le_iff]
  exact and_congr_right fun _ => forall_congr' fun i => imp_iff_right (Subsingleton.elim _ _)

/-! ### (D) A reshape visits every entry -/

/-- A reshape lists the same entries in row-major order under another shape, so a property holds of every
    entry of the reshaped vector exactly when it holds of every entry of the operand. The two hypotheses say
    that the shapes have equally many elements (`s.ShapeCasts t` is the proposition `t.numel = s.numel`); at
    literal shapes `by decide` proves each. -/
theorem forall_shapeCast_iff {α : Type} (x : s.Idx → α) (h : s.ShapeCasts t) (h' : t.ShapeCasts s)
    (P : α → Prop) : (∀ j : t.Idx, P (shapeCast t x h j)) ↔ ∀ i : s.Idx, P (x i) := by
  constructor
  · intro H i
    have e : shapeCast s (shapeCast t x h) h' i = x i := congrFun (shapeCast_shapeCast x h h') i
    rw [← e]
    exact H _
  · intro H j
    exact H _

end LibExtremes
-- ==== Proof.KernelExtremes.lean ====
/-
  The first kernel region, read as a value: it walks the [98304, 512] array in 12 blocks of 8192 rows, six per core slot,
  and keeps in each of two [8, 128] output blocks per slot the running minimum and maximum of the entries seen so far —
  reset to +∞ / −∞ at a slot's first block, written back after its sixth.
-/
import proofs.«154565_j23648089932393_2_alg».proof.Proof.Gen.KernelIdeal.Frame
import proofs.«154565_j23648089932393_2_alg».proof.Proof.Consts
import proofs.«154565_j23648089932393_2_alg».proof.Proof.LibExtremes
import Idealize.ShloMosaic.Lib.Pipeline.Value
import Idealize.ShloMosaic.Lib.ValueIdx

set_option maxRecDepth 16384

noncomputable section

namespace Cert.KernelIdeal.Extremes

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

variable {F : FTy → Type} [FloatOps F] [Named F]

theorem hz2 : (![0, 0] : Fin 2 → Nat) = fun _ => 0 := funext fun a => by fin_cases a <;> rfl

theorem outA1 (c : Dev nD) (i : grid0.Coords) (arg2 : Memref sig .tc .vmem S8192x512 .f32) (harg2 : arg2.IsWhole) (arg3 : Memref sig .tc .vmem S8x128 .f32) (harg3 : arg3.IsWhole) (arg4 : Memref sig .tc .vmem S8x128 .f32) (harg4 : arg4.IsWhole) (hc0 : cond0_0 i)
    (x0 : Vec F S8192x512 .f32) :
    out0_A_1 c i arg2 harg2 arg3 harg3 arg4 harg4 hc0 x0 = k0_pay4 x0 (k0_pay1 (F := F)) := by
  unfold out0_A_1
  rw [View.read_writes_eq_canon _ _ _ (cover0_A_1 c i arg2 harg2 arg3 harg3 arg4 harg4 hc0 x0)]
  unfold kernelRun0_A
  dsimp only
  sl_unfold_run_names
  rw [View.canon_cons_unit_zero hz2]
  rw [View.readCov_unit_zero (S := S8x128) arg3.view hz2]
  simp only [View.readAt_eq_ld, harg2.read_unread, View.ld_unit_zero (S := S8192x512) hz2]

theorem outA2 (c : Dev nD) (i : grid0.Coords) (arg2 : Memref sig .tc .vmem S8192x512 .f32) (harg2 : arg2.IsWhole) (arg3 : Memref sig .tc .vmem S8x128 .f32) (harg3 : arg3.IsWhole) (arg4 : Memref sig .tc .vmem S8x128 .f32) (harg4 : arg4.IsWhole) (hc0 : cond0_0 i)
    (x0 : Vec F S8192x512 .f32) :
    out0_A_2 c i arg2 harg2 arg3 harg3 arg4 harg4 hc0 x0 = k0_pay5 x0 (k0_pay2 (F := F)) := by
  unfold out0_A_2
  rw [View.read_writes_eq_canon _ _ _ (cover0_A_2 c i arg2 harg2 arg3 harg3 arg4 harg4 hc0 x0)]
  unfold kernelRun0_A
  dsimp only
  sl_unfold_run_names
  rw [View.canon_cons_unit_zero hz2]
  rw [View.readCov_unit_zero (S := S8x128) arg4.view hz2]
  simp only [View.readAt_eq_ld, harg2.read_unread, View.ld_unit_zero (S := S8192x512) hz2]

theorem outB1 (c : Dev nD) (i : grid0.Coords) (arg2 : Memref sig .tc .vmem S8192x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i)
    (x0 : Vec F S8192x512 .f32) (xo1 xo2 : Vec F S8x128 .f32) :
    out0_B_1 c i arg2 harg2 arg3 harg3 arg4 harg4 hc0 x0 xo1 xo2 = k0_pay4 x0 xo1 := by
  unfold out0_B_1
  rw [View.read_writes_eq_canon _ _ _ (cover0_B_1 c i arg2 harg2 arg3 harg3 arg4 harg4 hc0 x0 xo1 xo2)]
  unfold kernelRun0_B
  dsimp only
  sl_unfold_run_names
  rw [View.canon_unit_zero hz2]
  simp only [View.readAt_eq_ld, harg2.read_unread, harg3.read_unread, View.ld_unit_zero (S := S8192x512) hz2, View.ld_unit_zero (S := S8x128) hz2]

theorem outB2 (c : Dev nD) (i : grid0.Coords) (arg2 : Memref sig .tc .vmem S8192x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i)
    (x0 : Vec F S8192x512 .f32) (xo1 xo2 : Vec F S8x128 .f32) :
    out0_B_2 c i arg2 harg2 arg3 harg3 arg4 harg4 hc0 x0 xo1 xo2 = k0_pay5 x0 xo2 := by
  unfold out0_B_2
  rw [View.read_writes_eq_canon _ _ _ (cover0_B_2 c i arg2 harg2 arg3 harg3 arg4 harg4 hc0 x0 xo1 xo2)]
  unfold kernelRun0_B
  dsimp only
  sl_unfold_run_names
  rw [View.canon_unit_zero hz2]
  simp only [View.readAt_eq_ld, harg2.read_unread, harg4.read_unread, View.ld_unit_zero (S := S8192x512) hz2, View.ld_unit_zero (S := S8x128) hz2]

/-! ## The stored blocks as bounds

At the extended reals a running minimum is known by the numbers below it: `b ≤ min …` iff `b` is below every term. The
two payloads are read in that form (and the maxima dually), which is all the rest of the proof uses of them. -/

section Value

open LibExtremes

/-- A one-entry vector re-laid as [1, 1, 1], its entry taken out and spread over an [8, 128] block, reads that entry
    everywhere. -/
theorem spread_apply (v6 : FVec Ideal S1 .f32) (y : S8x128.Idx) :
    broadcastTo S8x128 (broadcast S1x1 (extractAt ![0, 0, 0] (shapeCast S1x1x1 v6 shapeCasts_S1_S1x1x1) inpos_S1x1x1_p0_0_0))
      broadcasts_S1x1_S8x128 y = v6 (ix1 (0 : Fin 1)) := by
  show v6 _ = v6 _
  exact congrArg v6 (Subsingleton.elim _ _)

/-- The stored minimum block at an entry: below-bounded exactly by the block's previous entry there and by every entry of
    the loaded [8192, 512] block (the block minimum starts from +∞, which bounds nothing). -/
theorem pay4_le_iff (x0 : Vec Ideal S8192x512 .f32) (xo : Vec Ideal S8x128 .f32) (y : S8x128.Idx) (b : EReal) :
    b ≤ k0_pay4 (F := Ideal) x0 xo y ↔ b ≤ xo y ∧ ∀ z : S8192x512.Idx, b ≤ x0 z := by
  unfold k0_pay4 k0_pay3
  simp only [shapeCast_self]
  rw [minimumf_apply, spread_apply, le_min_iff]
  refine and_congr Iff.rfl ?_
  refine (le_multiReduction_minimumf_iff_total (t := S1) _ _ _ _ _ _ _).trans ?_
  rw [Cert.Consts.ofBits_pos_inf]
  refine (and_iff_right le_top).trans ?_
  exact forall_shapeCast_iff x0 shapeCasts_S8192x512_S1x8192x512 shapeCasts_S8192x512_S1x8192x512.symm (fun v => b ≤ v)

/-- The stored maximum block at an entry, dually (the block maximum starts from −∞). -/
theorem pay5_le_iff (x0 : Vec Ideal S8192x512 .f32) (xo : Vec Ideal S8x128 .f32) (y : S8x128.Idx) (b : EReal) :
    k0_pay5 (F := Ideal) x0 xo y ≤ b ↔ xo y ≤ b ∧ ∀ z : S8192x512.Idx, x0 z ≤ b := by
  unfold k0_pay5 k0_pay3
  simp only [shapeCast_self]
  rw [maximumf_apply, spread_apply, max_le_iff]
  refine and_congr Iff.rfl ?_
  refine (multiReduction_maximumf_le_iff_total (t := S1) _ _ _ _ _ _ _).trans ?_
  rw [Cert.Consts.ofBits_neg_inf]
  refine (and_iff_right bot_le).trans ?_
  exact forall_shapeCast_iff x0 shapeCasts_S8192x512_S1x8192x512 shapeCasts_S8192x512_S1x8192x512.symm (fun v => v ≤ b)

end Value

/-! ## The running blocks, point by point, and the arrays written back -/

section Run

variable (V : (c : Dev nD) → (b : Ref sig .tc) → Buf (Elt Ideal) ((c : Thread nD τ).loc b))

/-- The printed index maps, decided once over the 12 points: point `t` reads block `t` of rows, and both outputs sit at
    block `t / 6`, the point's core slot. -/
theorem idx_facts0 : ∀ t : Fin cfg0.N, win0_0.index t (0 : Fin 2) = t.val ∧ win0_0.index t (1 : Fin 2) = 0
    ∧ win0_1.index t (0 : Fin 2) = t.val / 6 ∧ win0_1.index t (1 : Fin 2) = 0
    ∧ win0_2.index t (0 : Fin 2) = t.val / 6 ∧ win0_2.index t (1 : Fin 2) = 0 :=
  (by decide +kernel : ∀ t : Fin grid0.N, _)

/-- At a slot's first point the minimum block is reset: it is bounded below exactly by the entries of that point's block. -/
theorem min_reset (c : Dev nD) (t : Fin cfg0.N) (h0 : t.val % 6 = 0) (y : S8x128.Idx) (b : EReal) :
    b ≤ ((outsAt0 V c t.val t.isLt).1 y : EReal) ↔
      ∀ u : Fin cfg0.N, 6 * (t.val / 6) ≤ u.val → u.val ≤ t.val → ∀ z, b ≤ (iblk0 V c 0 u z : EReal) := by
  rw [outsAt0_A V c t h0]
  dsimp only
  rw [outA1, pay4_le_iff]
  have htop : b ≤ (k0_pay1 (F := Ideal) y : EReal) := by
    show b ≤ Ideal.ofBits .f32 0x7F800000#32
    rw [Cert.Consts.ofBits_pos_inf]; exact le_top
  refine (and_iff_right htop).trans ?_
  constructor
  · intro h u h1 h2 z
    have hut : u = t := Fin.ext (by omega)
    subst hut; exact h z
  · intro h z; exact h t (by omega) (le_refl _) z

/-- At any other point the minimum block is the one the point before left, lowered by the entries of this point's block. -/
theorem min_step (c : Dev nD) (t : Fin cfg0.N) (h0 : ¬t.val % 6 = 0) (y : S8x128.Idx) (b : EReal) :
    b ≤ ((outsAt0 V c t.val t.isLt).1 y : EReal) ↔
      b ≤ ((outsAt0 V c (t.val - 1) (Nat.lt_of_le_of_lt (Nat.sub_le _ _) t.isLt)).1 y : EReal)
        ∧ ∀ z, b ≤ (iblk0 V c 0 t z : EReal) := by
  rw [outsAt0_B V c t h0]
  dsimp only
  rw [outB1, pay4_le_iff]
  exact Iff.rfl

/-- THE RUNNING MINIMUM. After point `t` the minimum block is bounded below exactly by the entries of the blocks its core slot
    has read so far: those of the points from `6 · (t / 6)` to `t`. -/
theorem min_inv (c : Dev nD) (n : Nat) : ∀ t : Fin cfg0.N, t.val = n → ∀ (y : S8x128.Idx) (b : EReal),
    b ≤ ((outsAt0 V c t.val t.isLt).1 y : EReal) ↔
      ∀ u : Fin cfg0.N, 6 * (t.val / 6) ≤ u.val → u.val ≤ t.val → ∀ z, b ≤ (iblk0 V c 0 u z : EReal) := by
  induction n with
  | zero =>
    intro t ht y b
    exact min_reset V c t (by omega) y b
  | succ n ih =>
    intro t ht y b
    by_cases h0 : t.val % 6 = 0
    · exact min_reset V c t h0 y b
    · have hprev := ih ⟨t.val - 1, Nat.lt_of_le_of_lt (Nat.sub_le _ _) t.isLt⟩ (by show t.val - 1 = n; omega) y b
      refine (min_step V c t h0 y b).trans ((and_congr hprev Iff.rfl).trans ?_)
      constructor
      · rintro ⟨h1, h2⟩ u hu1 hu2 z
        by_cases hut : u.val = t.val
        · have hut' : u = t := Fin.ext hut
          subst hut'; exact h2 z
        · exact h1 u (by show 6 * ((t.val - 1) / 6) ≤ u.val; omega) (by show u.val ≤ t.val - 1; omega) z
      · intro h
        refine ⟨fun u hu1 hu2 z => ?_, fun z => h t (by omega) (le_refl _) z⟩
        have hu1' : 6 * ((t.val - 1) / 6) ≤ u.val := hu1
        have hu2' : u.val ≤ t.val - 1 := hu2
        exact h u (by omega) (by omega) z

end Run

section RunMax

variable (V : (c : Dev nD) → (b : Ref sig .tc) → Buf (Elt Ideal) ((c : Thread nD τ).loc b))

/-- At a slot's first point the maximum block is reset: it is bounded above exactly by the entries of that point's block. -/
theorem max_reset (c : Dev nD) (t : Fin cfg0.N) (h0 : t.val % 6 = 0) (y : S8x128.Idx) (b : EReal) :
    @LE.le EReal _ ((outsAt0 V c t.val t.isLt).2 y) b ↔
      ∀ u : Fin cfg0.N, 6 * (t.val / 6) ≤ u.val → u.val ≤ t.val → ∀ z, @LE.le EReal _ (iblk0 V c 0 u z) b := by
  rw [outsAt0_A V c t h0]
  dsimp only
  rw [outA2, pay5_le_iff]
  have hbot : @LE.le EReal _ (k0_pay2 (F := Ideal) y) b := by
    show Ideal.ofBits .f32 0xFF800000#32 ≤ b
    rw [Cert.Consts.ofBits_neg_inf]; exact bot_le
  refine (and_iff_right hbot).trans ?_
  constructor
  · intro h u h1 h2 z
    have hut : u = t := Fin.ext (by omega)
    subst hut; exact h z
  · intro h z; exact h t (by omega) (le_refl _) z

/-- At any other point the maximum block is the one the point before left, raised by the entries of this point's block. -/
theorem max_step (c : Dev nD) (t : Fin cfg0.N) (h0 : ¬t.val % 6 = 0) (y : S8x128.Idx) (b : EReal) :
    @LE.le EReal _ ((outsAt0 V c t.val t.isLt).2 y) b ↔
      @LE.le EReal _ ((outsAt0 V c (t.val - 1) (Nat.lt_of_le_of_lt (Nat.sub_le _ _) t.isLt)).2 y) b
        ∧ ∀ z, @LE.le EReal _ (iblk0 V c 0 t z) b := by
  rw [outsAt0_B V c t h0]
  dsimp only
  rw [outB2, pay5_le_iff]
  exact Iff.rfl

/-- THE RUNNING MAXIMUM. After point `t` the maximum block is bounded above exactly by the entries of the blocks its core slot
    has read so far. -/
theorem max_inv (c : Dev nD) (n : Nat) : ∀ t : Fin cfg0.N, t.val = n → ∀ (y : S8x128.Idx) (b : EReal),
    @LE.le EReal _ ((outsAt0 V c t.val t.isLt).2 y) b ↔
      ∀ u : Fin cfg0.N, 6 * (t.val / 6) ≤ u.val → u.val ≤ t.val → ∀ z, @LE.le EReal _ (iblk0 V c 0 u z) b := by
  induction n with
  | zero =>
    intro t ht y b
    exact max_reset V c t (by omega) y b
  | succ n ih =>
    intro t ht y b
    by_cases h0 : t.val % 6 = 0
    · exact max_reset V c t h0 y b
    · have hprev := ih ⟨t.val - 1, Nat.lt_of_le_of_lt (Nat.sub_le _ _) t.isLt⟩ (by show t.val - 1 = n; omega) y b
      refine (max_step V c t h0 y b).trans ((and_congr hprev Iff.rfl).trans ?_)
      constructor
      · rintro ⟨h1, h2⟩ u hu1 hu2 z
        by_cases hut : u.val = t.val
        · have hut' : u = t := Fin.ext hut
          subst hut'; exact h2 z
        · exact h1 u (by show 6 * ((t.val - 1) / 6) ≤ u.val; omega) (by show u.val ≤ t.val - 1; omega) z
      · intro h
        refine ⟨fun u hu1 hu2 z => ?_, fun z => h t (by omega) (le_refl _) z⟩
        have hu1' : 6 * ((t.val - 1) / 6) ≤ u.val := hu1
        have hu2' : u.val ≤ t.val - 1 := hu2
        exact h u (by omega) (by omega) z

end RunMax

/-! ## The two arrays after the run -/

section Arrays

variable (V : (c : Dev nD) → (b : Ref sig .tc) → Buf (Elt Ideal) ((c : Thread nD τ).loc b))

/-- An index of the array of minima is in point `t`'s block iff each coordinate is in the block's range on its axis. -/
theorem mem_blk1 (t : Fin cfg0.N) (i : S16x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v2_0).slice (win0_1.rect t)).set ↔ _
  rw [View.set_slice_whole, Rect.mem_set_unit]
  exact Iff.rfl

/-- Every index of the array of minima lies in the block written back at the last point of its core slot. -/
theorem cover1 (i : S16x128.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hN : cfg0.N = 12 := N_0
  let t : Fin cfg0.N := ⟨6 * ((i 0).val / 8) + 5, by rw [hN]; omega⟩
  obtain ⟨-, -, e2, e3, -, -⟩ := idx_facts0 t
  have e2' : win0_1.index t (0 : Fin 2) = (6 * ((i 0).val / 8) + 5) / 6 := e2
  refine ⟨t, (flush0_1 t).mpr (by show (6 * ((i 0).val / 8) + 5) % 6 = 5; omega), ?_⟩
  rw [mem_blk1]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- THE ARRAY OF MINIMA after the run: its entry at row `r` is bounded below exactly by the entries of the six blocks the
    core slot `r / 8` read. -/
theorem minArr_le_iff (c : Dev nD) (i : S16x128.Idx) (b : EReal) :
    b ≤ ((dat0 V c).arrAt 1 cfg0.N i : EReal) ↔
      ∀ u : Fin cfg0.N, u.val / 6 = (i 0).val / 8 → ∀ z, b ≤ (iblk0 V c 0 u z : EReal) := by
  refine (dat0 V c).arrAt_forall_of_cover 1
    (fun i v => ∀ b : EReal, b ≤ (v : EReal) ↔ ∀ u : Fin cfg0.N, u.val / 6 = (i 0).val / 8 → ∀ z, b ≤ (iblk0 V c 0 u z : EReal))
    ?_ cover1 i b
  intro t hf y b
  have h5 : t.val % 6 = 5 := (flush0_1 t).mp hf
  rw [cast_eq]
  have hfl : ((dat0 V c).flushed 1 t y : EReal) = (outsAt0 V c t.val t.isLt).1 y := by
    show (cfg0.win 1).cut (grid0.coords t) ((dat0 V c).after 1 t) y = _
    rw [after0_1]
  rw [hfl, min_inv V c t.val t rfl y b]
  obtain ⟨-, -, e2, e3, -, -⟩ := idx_facts0 t
  have hemb : ((((cfg0.win 1).blk t).view.emb y) 0).val = win0_1.index t (0 : Fin 2) * 8 + 1 * (y 0).val := rfl
  have hy0 : (y 0).val < 8 := (y 0).isLt
  constructor
  · intro h u hu z
    exact h u (by omega) (by omega) z
  · intro h u h1 h2 z
    exact h u (by omega) z

end Arrays

section ArraysMax

variable (V : (c : Dev nD) → (b : Ref sig .tc) → Buf (Elt Ideal) ((c : Thread nD τ).loc b))

/-- An index of the array of maxima is in point `t`'s block iff each coordinate is in the block's range on its axis. -/
theorem mem_blk2 (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v2_1).slice (win0_2.rect t)).set ↔ _
  rw [View.set_slice_whole, Rect.mem_set_unit]
  exact Iff.rfl

/-- Every index of the array of maxima lies in the block written back at the last point of its core slot. -/
theorem cover2 (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 12 := N_0
  let t : Fin cfg0.N := ⟨6 * ((i 0).val / 8) + 5, by rw [hN]; omega⟩
  obtain ⟨-, -, -, -, e4, e5⟩ := idx_facts0 t
  have e4' : win0_2.index t (0 : Fin 2) = (6 * ((i 0).val / 8) + 5) / 6 := e4
  refine ⟨t, (flush0_2 t).mpr (by show (6 * ((i 0).val / 8) + 5) % 6 = 5; omega), ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- THE ARRAY OF MAXIMA after the run: its entry at row `r` is bounded above exactly by the entries of the six blocks the
    core slot `r / 8` read. -/
theorem maxArr_le_iff (c : Dev nD) (i : S16x128.Idx) (b : EReal) :
    @LE.le EReal _ ((dat0 V c).arrAt 2 cfg0.N i) b ↔
      ∀ u : Fin cfg0.N, u.val / 6 = (i 0).val / 8 → ∀ z, @LE.le EReal _ (iblk0 V c 0 u z) b := by
  refine (dat0 V c).arrAt_forall_of_cover 2
    (fun i v => ∀ b : EReal, @LE.le EReal _ v b ↔ ∀ u : Fin cfg0.N, u.val / 6 = (i 0).val / 8 → ∀ z, @LE.le EReal _ (iblk0 V c 0 u z) b)
    ?_ cover2 i b
  intro t hf y b
  have h5 : t.val % 6 = 5 := (flush0_2 t).mp hf
  rw [cast_eq]
  have hfl : ((dat0 V c).flushed 2 t y : EReal) = (outsAt0 V c t.val t.isLt).2 y := by
    show (cfg0.win 2).cut (grid0.coords t) ((dat0 V c).after 2 t) y = _
    rw [after0_2]
  rw [hfl, max_inv V c t.val t rfl y b]
  obtain ⟨-, -, -, -, e4, e5⟩ := idx_facts0 t
  have hemb : ((((cfg0.win 2).blk t).view.emb y) 0).val = win0_2.index t (0 : Fin 2) * 8 + 1 * (y 0).val := rfl
  have hy0 : (y 0).val < 8 := (y 0).isLt
  constructor
  · intro h u hu z
    exact h u (by omega) (by omega) z
  · intro h u h1 h2 z
    exact h u (by omega) z

end ArraysMax

section Cover

variable (V : (c : Dev nD) → (b : Ref sig .tc) → Buf (Elt Ideal) ((c : Thread nD τ).loc b))

/-- The twelve blocks the region reads tile the whole [98304, 512] array (row `r` is row `r % 8192` of block `r / 8192`), so
    a statement about every entry of every block is a statement about every entry of the array. -/
theorem blocks_cover (c : Dev nD) (P : EReal → Prop) :
    (∀ (u : Fin cfg0.N) z, P (iblk0 V c 0 u z)) ↔ ∀ j : S98304x512.Idx, P (V c main_v0 j) := by
  constructor
  · intro h j
    have hj0 : (j 0).val < 98304 := (j 0).isLt
    have hj1 : (j 1).val < 512 := (j 1).isLt
    have hN : cfg0.N = 12 := N_0
    let u : Fin cfg0.N := ⟨(j 0).val / 8192, by rw [hN]; omega⟩
    let z : S8192x512.Idx := ix2 (⟨(j 0).val % 8192, by omega⟩ : Fin 8192) (⟨(j 1).val, hj1⟩ : Fin 512)
    have e : ((cfg0.win 0).blk u).view.emb z = j := by
      obtain ⟨e0, e1, -, -, -, -⟩ := idx_facts0 u
      have e0' : win0_0.index u (0 : Fin 2) = (j 0).val / 8192 := e0
      funext a; apply Fin.ext
      match a with
      | ⟨0, _⟩ => show win0_0.index u (0 : Fin 2) * 8192 + 1 * ((j 0).val % 8192) = (j 0).val; omega
      | ⟨1, _⟩ => show win0_0.index u (1 : Fin 2) * 512 + 1 * (j 1).val = (j 1).val; omega
    have hu := h u z
    have hr : iblk0 V c 0 u z = V c main_v0 (((cfg0.win 0).blk u).view.emb z) := rfl
    rw [hr, e] at hu
    exact hu
  · intro h u z
    exact h _

end Cover

end Cert.KernelIdeal.Extremes

end
-- ==== Proof.LibReshape.lean ====
/- Reshapes and pointwise operations, at any shapes.

   A reshape lists the entries of its operand in row-major order under another shape: the reshaped vector at
   an index `j` is the operand at the index with the same row-major position. Hence applying a function entry
   by entry and then reshaping is the same as reshaping the operands and then applying the function entry by
   entry (E), and a property holds of every entry of the operand exactly when it holds of every entry of the
   reshaped vector (F). -/
import Idealize.ShloMosaic.Lib.Pipeline.Value

namespace LibReshape

open Idealize.ShloMosaic

variable {s t : Shape}

/-- A function of one argument applied entry by entry commutes with a reshape. -/
theorem shapeCast_map {α β : Type} (f : α → β) (a : s.Idx → α) (h : s.ShapeCasts t) :
    shapeCast t (fun k => f (a k)) h = fun j => f (shapeCast t a h j) :=
  rfl

/-- A function of two arguments applied entry by entry commutes with a reshape: the reshape of the vector
    `k ↦ f (a k) (b k)` is `j ↦ f (a' j) (b' j)`, where `a'`, `b'` are the reshapes of `a`, `b`. -/
theorem shapeCast_map₂ {α β γ : Type} (f : α → β → γ) (a : s.Idx → α) (b : s.Idx → β) (h : s.ShapeCasts t) :
    shapeCast t (fun k => f (a k) (b k)) h = fun j => f (shapeCast t a h j) (shapeCast t b h j) :=
  rfl

/-- A property holds of every entry of a vector exactly when it holds of every entry of its reshape. The two
    hypotheses say that the shapes have equally many elements (`s.ShapeCasts t` is the proposition
    `t.numel = s.numel`); at literal shapes `by decide` proves each. -/
theorem forall_shapeCast_iff' {α : Type} (x : s.Idx → α) (h : s.ShapeCasts t) (h' : t.ShapeCasts s)
    (P : α → Prop) : (∀ i : s.Idx, P (x i)) ↔ ∀ j : t.Idx, P (shapeCast t x h j) := by
  constructor
  · intro H j
    exact H _
  · intro H i
    have e : shapeCast s (shapeCast t x h) h' i = x i := congrFun (shapeCast_shapeCast x h h') i
    rw [← e]
    exact H _

end LibReshape
-- ==== Proof.KernelValue.lean ====
/-
  The idealized kernel's result as one function of its two arguments: the second region's noise-and-clamp array of the
  re-laid arguments, re-laid back, with the two clamp bounds — the minimum of the first region's minima and the maximum of
  its maxima — recognised as the smallest and the largest entry of the first argument.
-/
import proofs.«154565_j23648089932393_2_alg».proof.Proof.KernelNoise
import proofs.«154565_j23648089932393_2_alg».proof.Proof.KernelHost
import proofs.«154565_j23648089932393_2_alg».proof.Proof.KernelExtremes
import proofs.«154565_j23648089932393_2_alg».proof.Proof.LibReshape

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open LibExtremes

variable (m : (ℓ : Loc nD τ sig) → Buf (Elt Ideal) ℓ) (ρ : Dev nD → PrngReg)

attribute [local irreducible] Host.reduce

/-- A scalar re-laid as a one-entry array reads the scalar. -/
theorem scalar_apply {α : Type} (r : S_.Idx → α) (i : S1x1.Idx) : shapeCast S1x1 r shapeCasts_S_S1x1 i = r ix0 := by
  show r _ = r _
  exact congrArg r (Subsingleton.elim _ _)

/-- THE LOWER CLAMP BOUND the second region reads is the smallest entry of the first argument: the host's minimum of the
    sixteen rows of minima is below-bounded by exactly the entries of all twelve blocks, the blocks tile the re-laid argument,
    and re-laying visits every entry. -/
theorem lo_eq (c : Dev nD) :
    (V3 m ρ c main_v5 Noise.i00 : EReal) = Spec.lo (fun i => (m ((c.tc : Thread nD τ).loc main_arg0) i : EReal)) := by
  refine Spec.eq_lo_of _ _ fun b => ?_
  have e := congrFun (HostSide.V3_v5 m ρ c) Noise.i00
  rw [e, scalar_apply]
  refine (le_hostReduce_minimumf_iff_total (t := S_) _ _ _ _ _ _).trans ?_
  have htop : b ≤ (constant (F := Ideal) S_ .f32 0x7F800000#32 (Shape.Idx.first h_S_) : EReal) := by
    show b ≤ Ideal.ofBits .f32 0x7F800000#32
    rw [Cert.Consts.ofBits_pos_inf]; exact le_top
  refine (and_iff_right htop).trans ?_
  have h1 : (∀ i : S16x128.Idx, b ≤ ((dat0 (V1 m ρ) c).arrAt 1 cfg0.N i : EReal))
      ↔ ∀ (u : Fin cfg0.N) z, b ≤ (iblk0 (V1 m ρ) c 0 u z : EReal) := by
    constructor
    · intro h u z
      have hN : u.val < 12 := lt_of_lt_of_eq u.isLt N_0
      exact (Extremes.minArr_le_iff (V1 m ρ) c (ix2 (⟨8 * (u.val / 6), by omega⟩ : Fin 16) (0 : Fin 128)) b).mp (h _) u
        (by show u.val / 6 = (8 * (u.val / 6)) / 8; omega) z
    · intro h i
      exact (Extremes.minArr_le_iff (V1 m ρ) c i b).mpr (fun u _ z => h u z)
  refine h1.trans ((Extremes.blocks_cover (V1 m ρ) c (fun v => b ≤ v)).trans ?_)
  rw [HostSide.V1_v0 m ρ c]
  exact forall_shapeCast_iff _ shapeCasts_S64x3x512x512_S98304x512 shapeCasts_S64x3x512x512_S98304x512.symm (fun v => b ≤ v)

/-- THE UPPER CLAMP BOUND is the largest entry of the first argument, dually. -/
theorem hi_eq (c : Dev nD) :
    (V3 m ρ c main_v6 Noise.i00 : EReal) = Spec.hi (fun i => (m ((c.tc : Thread nD τ).loc main_arg0) i : EReal)) := by
  refine Spec.eq_hi_of _ _ fun b => ?_
  have e := congrFun (HostSide.V3_v6 m ρ c) Noise.i00
  rw [e, scalar_apply]
  refine (hostReduce_maximumf_le_iff_total (t := S_) _ _ _ _ _ _).trans ?_
  have hbot : @LE.le EReal _ (constant (F := Ideal) S_ .f32 0xFF800000#32 (Shape.Idx.first h_S_)) b := by
    show Ideal.ofBits .f32 0xFF800000#32 ≤ b
    rw [Cert.Consts.ofBits_neg_inf]; exact bot_le
  refine (and_iff_right hbot).trans ?_
  have h1 : (∀ i : S16x128.Idx, @LE.le EReal _ ((dat0 (V1 m ρ) c).arrAt 2 cfg0.N i) b)
      ↔ ∀ (u : Fin cfg0.N) z, @LE.le EReal _ (iblk0 (V1 m ρ) c 0 u z) b := by
    constructor
    · intro h u z
      have hN : u.val < 12 := lt_of_lt_of_eq u.isLt N_0
      exact (Extremes.maxArr_le_iff (V1 m ρ) c (ix2 (⟨8 * (u.val / 6), by omega⟩ : Fin 16) (0 : Fin 128)) b).mp (h _) u
        (by show u.val / 6 = (8 * (u.val / 6)) / 8; omega) z
    · intro h i
      exact (Extremes.maxArr_le_iff (V1 m ρ) c i b).mpr (fun u _ z => h u z)
  refine h1.trans ((Extremes.blocks_cover (V1 m ρ) c (fun v => v ≤ b)).trans ?_)
  rw [HostSide.V1_v0 m ρ c]
  exact forall_shapeCast_iff _ shapeCasts_S64x3x512x512_S98304x512 shapeCasts_S64x3x512x512_S98304x512.symm (fun v => v ≤ b)

/-- THE RESULT ARRAY after the whole run is the common value of the two arguments: an entrywise function commutes with
    re-laying, and re-laying there and back is the identity. -/
theorem result (c : Dev nD) :
    (W5 m ρ c (Proc.devRef .tc main_v8) : S64x3x512x512.Idx → Elt Ideal .f32)
      = Spec.result (fun i => (m ((c.tc : Thread nD τ).loc main_arg0) i : EReal))
          (fun i => (m ((c.tc : Thread nD τ).loc main_arg1) i : EReal)) := by
  rw [HostSide.W5_v8 m ρ c, Noise.final (V3 m ρ) c, HostSide.V3_v0 m ρ c, HostSide.V3_v1 m ρ c, HostSide.V1_v0 m ρ c,
    HostSide.V1_v1 m ρ c]
  unfold Noise.G
  rw [lo_eq m ρ c, hi_eq m ρ c]
  refine (LibReshape.shapeCast_map₂ (fun a b => Spec.entry Spec.bound
    (Spec.lo (fun i => (m ((c.tc : Thread nD τ).loc main_arg0) i : EReal)))
    (Spec.hi (fun i => (m ((c.tc : Thread nD τ).loc main_arg0) i : EReal))) a b) _ _ _).trans ?_
  funext j
  have e0 := congrFun (shapeCast_shapeCast (m ((c.tc : Thread nD τ).loc main_arg0)) shapeCasts_S64x3x512x512_S98304x512
    shapeCasts_S98304x512_S64x3x512x512) j
  have e1 := congrFun (shapeCast_shapeCast (m ((c.tc : Thread nD τ).loc main_arg1)) shapeCasts_S64x3x512x512_S98304x512
    shapeCasts_S98304x512_S64x3x512x512) j
  exact congrArg₂ (Spec.entry Spec.bound _ _) e0 e1

end Cert.KernelIdeal.Whole

end
-- ==== Proof.RefValue.lean ====
/-
  The reference's result, read at an index: it is the common value `Spec.result` of the two arguments. The reference takes the
  smallest and the largest entry by one reduction each over all four axes, and holds a sample below one by the bound
  `1 − d` computed at run time from the words of 1 and of `d`, the single-precision number nearest 10⁻⁷ — exactly the
  rational `Spec.bound`.
-/
import proofs.«154565_j23648089932393_2_alg».proof.Proof.RefRun
import proofs.«154565_j23648089932393_2_alg».proof.Proof.Spec
import proofs.«154565_j23648089932393_2_alg».proof.Proof.Consts
import proofs.«154565_j23648089932393_2_alg».proof.Proof.LibExtremes
import Idealize.ShloMosaic.Lib.Pipeline.Value
import Idealize.ShloMosaic.Lib.ValueIdx

noncomputable section

namespace Cert.ReferenceIdeal.RefValue

open Cert.ReferenceIdeal Cert.ReferenceIdeal.Gen
open Idealize.ShloMosaic Idealize.ShloMosaic.TcCoe Idealize.ShloMosaic.ValueIdx Idealize.SL.Sem Idealize.ShloMosaic.StableHlo
open LibExtremes

/-- A scalar spread over the whole array reads the scalar everywhere. -/
theorem spread_apply {α : Type} (r : S_.Idx → α) (i : S64x3x512x512.Idx) :
    broadcastInDim S64x3x512x512 ![] bcast_S_S64x3x512x512 r i = r ix0 :=
  broadcastInDim_apply _ bcast_S_S64x3x512x512 r i ix0 (fun a => a.elim0)

/-- The reference's minimum over all four axes, from +∞, is the smallest entry. -/
theorem reduce_min_eq (x : (⟨S64x3x512x512, .f32⟩ : BufTy).Contents (Elt Ideal)) :
    (Host.reduce (FloatOps.minimumf (F := Ideal) (φ := .f32)) x (constant (F := Ideal) S_ .f32 0x7F800000#32) reducesTo_S64x3x512x512_S_d0_1_2_3 h_S_ ix0 : EReal)
      = Spec.lo (fun i => (x i : EReal)) := by
  refine Spec.eq_lo_of _ _ fun b => ?_
  refine (le_hostReduce_minimumf_iff_total (t := S_) _ _ _ _ _ _).trans ?_
  refine and_iff_right ?_
  show b ≤ Ideal.ofBits .f32 0x7F800000#32
  rw [Cert.Consts.ofBits_pos_inf]; exact le_top

/-- The reference's maximum over all four axes, from −∞, is the largest entry. -/
theorem reduce_max_eq (x : (⟨S64x3x512x512, .f32⟩ : BufTy).Contents (Elt Ideal)) :
    (Host.reduce (FloatOps.maximumf (F := Ideal) (φ := .f32)) x (constant (F := Ideal) S_ .f32 0xFF800000#32) reducesTo_S64x3x512x512_S_d0_1_2_3 h_S_ ix0 : EReal)
      = Spec.hi (fun i => (x i : EReal)) := by
  refine Spec.eq_hi_of _ _ fun b => ?_
  refine (hostReduce_maximumf_le_iff_total (t := S_) _ _ _ _ _ _).trans ?_
  refine and_iff_right ?_
  show Ideal.ofBits .f32 0xFF800000#32 ≤ b
  rw [Cert.Consts.ofBits_neg_inf]; exact bot_le

attribute [local irreducible] Host.reduce in
/-- THE REFERENCE'S TERM IS THE COMMON VALUE: the run's composed term of the two arguments, at every index, is
    `Spec.result` there — the clamp between the two reductions, the sum, the scaled square root of the scaled `log1p` of the
    negated held-down sample, each operation the entry's own; the bound `1 − d` is the rational `Spec.bound`. -/
theorem result_eq (x u : (⟨S64x3x512x512, .f32⟩ : BufTy).Contents (Elt Ideal)) :
    minimumf (F := Ideal) (broadcastInDim S64x3x512x512 ![] bcast_S_S64x3x512x512 (Host.reduce FloatOps.maximumf x (constant S_ .f32 0xFF800000#32) reducesTo_S64x3x512x512_S_d0_1_2_3 h_S_)) (maximumf (broadcastInDim S64x3x512x512 ![] bcast_S_S64x3x512x512 (Host.reduce FloatOps.minimumf x (constant S_ .f32 0x7F800000#32) reducesTo_S64x3x512x512_S_d0_1_2_3 h_S_)) (addf x (mulf (broadcastInDim S64x3x512x512 ![] bcast_S_S64x3x512x512 (constant S_ .f32 0x3D4CCCCD#32)) (Host.sqrt (mulf (broadcastInDim S64x3x512x512 ![] bcast_S_S64x3x512x512 (constant S_ .f32 0xC0000000#32)) (Host.log1p (Host.negf (minimumf u (broadcastInDim S64x3x512x512 ![] bcast_S_S64x3x512x512 (subf (constant S_ .f32 0x3F800000#32) (constant S_ .f32 0x33D6BF95#32)))))))))))
      = Spec.result (fun i => (x i : EReal)) (fun i => (u i : EReal)) := by
  funext i
  rw [minimumf_apply, maximumf_apply, spread_apply, spread_apply]
  unfold Spec.result Spec.bound
  rw [← reduce_min_eq x, ← reduce_max_eq x, ← Cert.Consts.one_sub_eps]
  rfl

end Cert.ReferenceIdeal.RefValue

end
-- ==== Proof.lean ====
/-
  The proof of `Cert.Claim` for a noise-and-clamp kernel against its reference.

  Both programs map two [64, 3, 512, 512] arrays `x`, `u` to `clip(x + σ · √(−2 · log1p(−min(u, c))), min x, max x)`.
  The kernel does it in two passes over the arrays re-laid as [98304, 512]: the first keeps, per core slot, a running minimum
  and maximum over six blocks of 8192 rows (the host then takes the minimum of the minima and the maximum of the maxima);
  the second computes the clamped sum block by block. The reference is one line of array operations. Over the extended reals:

  * the two clamp bounds agree because a minimum of minima over blocks that tile the array is the array's smallest entry
    (both are the infimum: a number is below one iff it is below every entry), and dually for the maximum — commutativity
    and associativity of min and max only, so finiteness of the inputs is never used;
  * the bound `c` that holds a sample below one agrees because the kernel's constant is named the exact rational
    `1 − d`, `d` the single-precision number nearest 10⁻⁷, which is what the reference computes from the words of 1 and `d`;
  * everything else is the same operation at the same entry, and re-laying an array there and back is the identity.

  The three frames: the two kernels' are the generated frame certificates; the reference's is its run with the result dropped.
  `preserves` is the one ledger entry's statement.
-/
import proofs.«154565_j23648089932393_2_alg».proof.Defs
import proofs.«154565_j23648089932393_2_alg».proof.Proof.Gen.Kernel
import proofs.«154565_j23648089932393_2_alg».proof.Proof.Gen.Kernel.Skeleton
import proofs.«154565_j23648089932393_2_alg».proof.Proof.Gen.Kernel.Launch
import proofs.«154565_j23648089932393_2_alg».proof.Proof.Gen.Kernel.Points
import proofs.«154565_j23648089932393_2_alg».proof.Proof.Gen.Kernel.Frame
import proofs.«154565_j23648089932393_2_alg».proof.Proof.Gen.KernelIdeal
import proofs.«154565_j23648089932393_2_alg».proof.Proof.Gen.KernelIdeal.Skeleton
import proofs.«154565_j23648089932393_2_alg».proof.Proof.Gen.KernelIdeal.Launch
import proofs.«154565_j23648089932393_2_alg».proof.Proof.Gen.KernelIdeal.Points
import proofs.«154565_j23648089932393_2_alg».proof.Proof.Gen.KernelIdeal.Frame
import proofs.«154565_j23648089932393_2_alg».proof.Proof.Gen.ReferenceIdeal
import proofs.«154565_j23648089932393_2_alg».proof.Proof.Gen.Pre_finite_inputs
import proofs.«154565_j23648089932393_2_alg».proof.Proof.KernelRun
import proofs.«154565_j23648089932393_2_alg».proof.Proof.KernelValue
import proofs.«154565_j23648089932393_2_alg».proof.Proof.RefRun
import proofs.«154565_j23648089932393_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: the table gives the kernel's clamp constant the rational `1 − d`, and the printed constant is that
    value over the extended reals. -/
theorem preserves : Cert.preserves_Kernel_KernelIdeal :=
  IdealRules.named_const.statement Cert.KernelIdeal.κ "one_minus_eps" .f32 0x3F7FFFFE#32
    ((140737474281579 / 140737488355328 : ℝ) : EReal) rfl

/-- Both runs end with the result array at the common value `Spec.result` of the two arguments, which the agreement of the
    memories makes the same two arrays. -/
theorem algebraic : Cert.algebraic_KernelIdeal_ReferenceIdeal := by
  intro m ρ m' ρ' _ hagree
  refine ⟨fun c => Cert.Spec.result
      (fun i => (m ((c.tc : Thread Cert.KernelIdeal.nD Cert.KernelIdeal.τ).loc Cert.KernelIdeal.main_arg0) i : EReal))
      (fun i => (m ((c.tc : Thread Cert.KernelIdeal.nD Cert.KernelIdeal.τ).loc Cert.KernelIdeal.main_arg1) i : EReal)), ?_, ?_⟩
  · exact (θ_run Cert.KernelIdeal.defs _ _).mono
      (fun r h c => ⟨(h c).1.trans (Cert.KernelIdeal.Whole.result m ρ c), (h c).2.1, (h c).2.2⟩)
      (Cert.KernelIdeal.RunValue.run_result (F := Ideal) m ρ)
  · refine (θ_run Cert.ReferenceIdeal.defs _ _).mono (fun r h c => ⟨?_, (h c).2.1, (h c).2.2⟩)
      (Cert.ReferenceIdeal.ValueP.run (F := Ideal) m' ρ')
    rw [(h c).1, Cert.ReferenceIdeal.RefValue.result_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
